-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 92
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .bf16⟩
  | .hbm, ⟨42, _⟩ => ⟨S128x128, .bf16⟩
  | .hbm, ⟨43, _⟩ => ⟨S100000x128, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x128, .bf16⟩
  | .hbm, ⟨67, _⟩ => ⟨S128x64, .bf16⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S100000x64, .bf16⟩
  | .hbm, ⟨89, _⟩ => ⟨S64x64, .bf16⟩
  | .hbm, ⟨90, _⟩ => ⟨S1x64, .f32⟩
  | .hbm, ⟨91, _⟩ => ⟨S100000x64, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S128x64, .bf16⟩
  | .local _ .vmem, ⟨8, _⟩ => ⟨S10000x64, .f32⟩
  | .local _ .vmem, ⟨9, _⟩ => ⟨S10000x64, .f32⟩
  | .local _ .vmem, ⟨10, _⟩ => ⟨S10000x64, .bf16⟩
  | .local _ .vmem, ⟨11, _⟩ => ⟨S10000x64, .bf16⟩
  | .local _ .vmem, ⟨12, _⟩ => ⟨S64x64, .bf16⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_7 : Ref sig .tc := ⟨.hbm, 69, rfl⟩
abbrev main_v50 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64_S1x64 : S64.ShapeCasts S1x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .bf16 = 32 ∨ (Rect.block (s := S100000x64) S10000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .bf16 = 32 ∨ (Rect.block (s := S64x64) S64x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v27) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S100000x128, .f32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x64, .f32⟩
  | .hbm, ⟨65, _⟩ => ⟨S_, .f32⟩
  | .hbm, ⟨66, _⟩ => ⟨S1700000, .f32⟩
  | .hbm, ⟨67, _⟩ => ⟨S_, .f32⟩
  | .hbm, ⟨68, _⟩ => ⟨S100000, .f32⟩
  | .hbm, ⟨69, _⟩ => ⟨S1700000x1, .i32⟩
  | .hbm, ⟨70, _⟩ => ⟨S100000, .f32⟩
  | .hbm, ⟨71, _⟩ => ⟨S100000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S1700000, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x64, .f32⟩
  | .hbm, ⟨100, _⟩ => ⟨S1700000x1, .f32⟩
  | .hbm, ⟨101, _⟩ => ⟨S1700000x64, .f32⟩
  | .hbm, ⟨102, _⟩ => ⟨S1700000x64, .f32⟩
  | .hbm, ⟨103, _⟩ => ⟨S_, .f32⟩
  | .hbm, ⟨104, _⟩ => ⟨S100000x64, .f32⟩
  | .hbm, ⟨105, _⟩ => ⟨S1700000x1, .i32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x64, .f32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with its result array named.

  The program is eight segments: host operations, a row-tiled matrix product, host operations, a second
  product, host operations, a third product with a bias row. Every weakly fair execution runs them in order;
  after the last segment every buffer holds the last boundary's contents. Read at the result array that is what
  the third product's write-backs leave; read at an argument it is what was launched.
-/
import proofs.«145735_j25048249270381_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched. -/
theorem run : θ_run defs (onTc (τ := τ) (main (F := F))) ⟨m, fun _ => 0, ρ⟩ (fun r => ∀ c : Dev nD,
      r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Hand

end
-- ==== Proof.Spec.lean ====
/-
  The function both programs compute: two graph-convolution layers and a dense layer, as one function of the
  argument arrays.

  Every node sends a message along every edge and one to itself. With `src` and `dst` the end points of the
  1,600,000 edges followed by the 100,000 self loops, `deg` counts the messages a node receives, and a message
  from s to d carries the weight `norm = deg(s)^(-1/2) · deg(d)^(-1/2)`. A layer multiplies the node features by
  its weight matrix, sends each row along every message scaled by the message's weight, adds what arrives at each
  node, and adds the layer's bias; the first layer is followed by max(·, 0), and a plain dense layer (a matrix
  product plus a bias row) closes. Each stage below is a composition of the host operations the programs print,
  kept unopened: only the three matrix products are ever read at an index.
-/
import proofs.«145735_j25048249270381_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- The node every message leaves: row 0 of the edge list, then each node once (its self loop). -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The node every message reaches: row 1 of the edge list, then each node once. -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counts from the end: 100000 is added to it. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- deg^(-1/2), where deg counts the messages that reach each node. -/
def dinv (d : (⟨S1700000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32)))

/-- The weight of each message: deg^(-1/2) at its source times deg^(-1/2) at its target. -/
def norm (s d : (⟨S1700000, .i32⟩ : BufTy).Contents (Elt F)) : (⟨S1700000, .f32⟩ : BufTy).Contents (Elt F) :=
  mulf (Host.gather gather_S100000_S1700000x1_S1700000_n_0_n_n_0_1_1 (dinv d) (broadcastInDim S1700000x1 ![0] bcast_S1700000_S1700000x1_0 (wrap s))) (Host.gather gather_S100000_S1700000x1_S1700000_n_0_n_n_0_1_1 (dinv d) (broadcastInDim S1700000x1 ![0] bcast_S1700000_S1700000x1_0 (wrap d)))

/-- Rows of 128 features sent along every message, scaled by its weight, and added up at the target. -/
def agg128 (h : (⟨S100000x128, .f32⟩ : BufTy).Contents (Elt F)) (s d : (⟨S1700000, .i32⟩ : BufTy).Contents (Elt F)) (n : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrap s))) (broadcastInDim S1700000x128 ![0, 1] bcast_S1700000x1_S1700000x128_0_1 (broadcastInDim S1700000x1 ![0] bcast_S1700000_S1700000x1_0 n)))

/-- The same for rows of 64 features. -/
def agg64 (h : (⟨S100000x64, .f32⟩ : BufTy).Contents (Elt F)) (s d : (⟨S1700000, .i32⟩ : BufTy).Contents (Elt F)) (n : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrap s))) (broadcastInDim S1700000x64 ![0, 1] bcast_S1700000x1_S1700000x64_0_1 (broadcastInDim S1700000x1 ![0] bcast_S1700000_S1700000x1_0 n)))

/-- A bias of 128 entries added to every row. -/
def bias128 (a : (⟨S100000x128, .f32⟩ : BufTy).Contents (Elt F)) (b : (⟨S128, .f32⟩ : BufTy).Contents (Elt F)) : (⟨S100000x128, .f32⟩ : BufTy).Contents (Elt F) :=
  addf a (broadcastInDim S100000x128 ![0, 1] bcast_S1x128_S100000x128_0_1 (broadcastInDim S1x128 ![1] bcast_S128_S1x128_1 b))

/-- A bias of 64 entries added to every row. -/
def bias64 (a : (⟨S100000x64, .f32⟩ : BufTy).Contents (Elt F)) (b : (⟨S64, .f32⟩ : BufTy).Contents (Elt F)) : (⟨S100000x64, .f32⟩ : BufTy).Contents (Elt F) :=
  addf a (broadcastInDim S100000x64 ![0, 1] bcast_S1x64_S100000x64_0_1 (broadcastInDim S1x64 ![1] bcast_S64_S1x64_1 b))

/-- max(·, 0), entry by entry. -/
def relu (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- The three matrix products, rows times columns: [100000,128]·[128,128], [100000,128]·[128,64], [100000,64]·[64,64]. -/
def mm1 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w
def mm2 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w
def mm3 (x : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none x w

/-- The first layer after its matrix product: aggregate, add the bias, clamp at zero. -/
def layer1 (h : (⟨S100000x128, .f32⟩ : BufTy).Contents (Elt F)) (e : (⟨S2x1600000, .i32⟩ : BufTy).Contents (Elt F)) (b : (⟨S128, .f32⟩ : BufTy).Contents (Elt F)) : (⟨S100000x128, .f32⟩ : BufTy).Contents (Elt F) :=
  relu (bias128 (agg128 h (src e) (dst e) (norm (src e) (dst e))) b)

/-- The second layer after its matrix product: aggregate and add the bias. -/
def layer2 (h : (⟨S100000x64, .f32⟩ : BufTy).Contents (Elt F)) (e : (⟨S2x1600000, .i32⟩ : BufTy).Contents (Elt F)) (b : (⟨S64, .f32⟩ : BufTy).Contents (Elt F)) : (⟨S100000x64, .f32⟩ : BufTy).Contents (Elt F) :=
  bias64 (agg64 h (src e) (dst e) (norm (src e) (dst e))) b

/-- The whole network. -/
def out (x : (⟨S100000x128, .f32⟩ : BufTy).Contents (Elt F)) (e : (⟨S2x1600000, .i32⟩ : BufTy).Contents (Elt F)) (W1 : (⟨S128x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) (Wfc : (⟨S64x64, .f32⟩ : BufTy).Contents (Elt F)) (bfc : (⟨S64, .f32⟩ : BufTy).Contents (Elt F)) : (⟨S100000x64, .f32⟩ : BufTy).Contents (Elt F) :=
  bias64 (mm3 (layer2 (mm2 (layer1 (mm1 x W1) e b1) W2) e b2) Wfc) bfc

end Cert.Gcn

end
-- ==== Proof.Host0.lean ====
/-
  The kernel program's host operations before its first matrix product, read from any starting contents W.

  They build, from the edge list alone, the source and target node of every message and the messages' weights,
  and hand the first product its two operands, the node features and the first weight matrix, in the narrower
  float format. No other argument is touched.
-/
import proofs.«145735_j25048249270381_1_alg».proof.Proof.Gen.KernelIdeal.Launch
import proofs.«145735_j25048249270381_1_alg».proof.Proof.Spec
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-- The first product's left operand is the node features, narrowed. -/
theorem h0_v27 : after hostOps0 W (Proc.devRef .tc main_v27) = truncf .bf16 (W main_arg0) bitsLt_bf16_f32 := by
  after_results_simp <;> rfl

/-- Its right operand is the first weight matrix, narrowed. -/
theorem h0_v28 : after hostOps0 W (Proc.devRef .tc main_v28) = truncf .bf16 (W main_arg2) bitsLt_bf16_f32 := by
  after_results_simp <;> rfl

/-- The messages' source nodes. -/
theorem h0_v3 : after hostOps0 W (Proc.devRef .tc main_v3) = Cert.Gcn.src (W main_arg1) := by
  after_results_simp <;> rfl

/-- The messages' target nodes. -/
theorem h0_v6 : after hostOps0 W (Proc.devRef .tc main_v6) = Cert.Gcn.dst (W main_arg1) := by
  after_results_simp <;> rfl

/-- The messages' weights. -/
theorem h0_v26 : after hostOps0 W (Proc.devRef .tc main_v26)
    = Cert.Gcn.norm (Cert.Gcn.src (W main_arg1)) (Cert.Gcn.dst (W main_arg1)) := by
  after_results_simp <;> rfl

/-- Argument 3 is not written. -/
theorem h0_arg3 : after hostOps0 W (Proc.devRef .tc main_arg3) = W main_arg3 := by
  after_results_simp <;> rfl

/-- Argument 4 is not written. -/
theorem h0_arg4 : after hostOps0 W (Proc.devRef .tc main_arg4) = W main_arg4 := by
  after_results_simp <;> rfl

/-- Argument 5 is not written. -/
theorem h0_arg5 : after hostOps0 W (Proc.devRef .tc main_arg5) = W main_arg5 := by
  after_results_simp <;> rfl

/-- Argument 6 is not written. -/
theorem h0_arg6 : after hostOps0 W (Proc.devRef .tc main_arg6) = W main_arg6 := by
  after_results_simp <;> rfl

/-- Argument 7 is not written. -/
theorem h0_arg7 : after hostOps0 W (Proc.devRef .tc main_arg7) = W main_arg7 := by
  after_results_simp <;> rfl

end Cert.KernelIdeal.Hand

end
-- ==== Proof.Host1.lean ====
/-
  The kernel program's host operations between its first and second matrix products, read from any contents W:
  three stretches (the aggregation and bias of the first layer; the clamp at zero; the narrowing of the second
  product's operands), taken together.
-/
import proofs.«145735_j25048249270381_1_alg».proof.Proof.Gen.KernelIdeal.Launch
import proofs.«145735_j25048249270381_1_alg».proof.Proof.Spec
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-- The second product's left operand: the first layer applied to what the first product left, narrowed. -/
theorem h1_v47 : after hostOps1_2 (after hostOps1_1 (after hostOps1 W)) (Proc.devRef .tc main_v47)
    = truncf .bf16 (Cert.Gcn.relu (Cert.Gcn.bias128 (Cert.Gcn.agg128 (W main_v29) (W main_v3) (W main_v6) (W main_v26)) (W main_arg3))) bitsLt_bf16_f32 := by
  after_results_simp <;> rfl

/-- Its right operand is the second weight matrix, narrowed. -/
theorem h1_v48 : after hostOps1_2 (after hostOps1_1 (after hostOps1 W)) (Proc.devRef .tc main_v48)
    = truncf .bf16 (W main_arg4) bitsLt_bf16_f32 := by
  after_results_simp <;> rfl

/-- `main_v3` is not written. -/
theorem h1_v3 : after hostOps1_2 (after hostOps1_1 (after hostOps1 W)) (Proc.devRef .tc main_v3) = W main_v3 := by
  after_results_simp <;> rfl

/-- `main_v6` is not written. -/
theorem h1_v6 : after hostOps1_2 (after hostOps1_1 (after hostOps1 W)) (Proc.devRef .tc main_v6) = W main_v6 := by
  after_results_simp <;> rfl

/-- `main_v26` is not written. -/
theorem h1_v26 : after hostOps1_2 (after hostOps1_1 (after hostOps1 W)) (Proc.devRef .tc main_v26) = W main_v26 := by
  after_results_simp <;> rfl

/-- `main_arg5` is not written. -/
theorem h1_arg5 : after hostOps1_2 (after hostOps1_1 (after hostOps1 W)) (Proc.devRef .tc main_arg5) = W main_arg5 := by
  after_results_simp <;> rfl

/-- `main_arg6` is not written. -/
theorem h1_arg6 : after hostOps1_2 (after hostOps1_1 (after hostOps1 W)) (Proc.devRef .tc main_arg6) = W main_arg6 := by
  after_results_simp <;> rfl

/-- `main_arg7` is not written. -/
theorem h1_arg7 : after hostOps1_2 (after hostOps1_1 (after hostOps1 W)) (Proc.devRef .tc main_arg7) = W main_arg7 := by
  after_results_simp <;> rfl

end Cert.KernelIdeal.Hand

end
-- ==== Proof.Host2.lean ====
/-
  The kernel program's host operations between its second and third matrix products, read from any contents W:
  the aggregation and bias of the second layer, and the third product's three operands (the layer's output and
  the last weight matrix narrowed; the last bias as a row).
-/
import proofs.«145735_j25048249270381_1_alg».proof.Proof.Gen.KernelIdeal.Launch
import proofs.«145735_j25048249270381_1_alg».proof.Proof.Spec
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-- The third product's left operand: the second layer applied to what the second product left, narrowed. -/
theorem h2_v66 : after hostOps2 W (Proc.devRef .tc main_v66)
    = truncf .bf16 (Cert.Gcn.bias64 (Cert.Gcn.agg64 (W main_v49) (W main_v3) (W main_v6) (W main_v26)) (W main_arg5)) bitsLt_bf16_f32 := by
  after_results_simp <;> rfl

/-- Its right operand is the last weight matrix, narrowed. -/
theorem h2_v67 : after hostOps2 W (Proc.devRef .tc main_v67) = truncf .bf16 (W main_arg6) bitsLt_bf16_f32 := by
  after_results_simp <;> rfl

/-- Its bias row is the last bias, reshaped from 64 entries to one row of 64. -/
theorem h2_v68 : after hostOps2 W (Proc.devRef .tc main_v68) = shapeCast S1x64 (W main_arg7) shapeCasts_S64_S1x64 := by
  after_results_simp <;> rfl

end Cert.KernelIdeal.Hand

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.SpecAt.lean ====
/-
  The stages of the network that are read entry by entry, at the extended reals.

  A matrix product's entry (p, q) is the sum over k of left (p, k) · right (k, q); a bias added to every row
  adds its entry q at (p, q); a vector of 64 entries laid out as one row keeps entry q at (0, q). Conversely an
  array with those entries is that stage: this is how a product computed tile by tile meets the product
  computed at once, and how a product with the bias row added inside meets the bias added afterwards.
-/
import proofs.«145735_j25048249270381_1_alg».proof.Proof.Spec
import proofs.«145735_j25048249270381_1_alg».proof.Proof.LibDotRows
import proofs.«145735_j25048249270381_1_alg».proof.Proof.LibRowCast
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx Cert.ReferenceIdeal Cert.ReferenceIdeal.Gen

/-- Entry (p, q) of the product `mm1` is the sum over k of left (p, k) times right (k, q). -/
theorem mm1_at (l : S100000x128.Idx → EReal) (r : S128x128.Idx → EReal) (p : Fin 100000) (q : Fin 128) :
    ∑ k : Fin 128, l (ix2 p k) * r (ix2 k q) = mm1 (F := Ideal) l r (ix2 p q) := by
  unfold mm1
  refine Eq.symm ((Ideal.dotGeneral_apply _ _ _ _ _ _).trans ?_)
  dot_rows dot_S100000x128_S128x128_S100000x128_1_0_0_1_n_n S100000x128 S128x128 128

/-- An array whose entry (p, q) is that sum, for every p and q, is the product. -/
theorem mm1_ext (l : S100000x128.Idx → EReal) (r : S128x128.Idx → EReal) (o : S100000x128.Idx → EReal)
    (h : ∀ (p : Fin 100000) (q : Fin 128), o (ix2 p q) = ∑ k : Fin 128, l (ix2 p k) * r (ix2 k q)) :
    o = mm1 (F := Ideal) l r := by
  funext i
  obtain ⟨p, q, rfl⟩ : ∃ (p : Fin 100000) (q : Fin 128), i = ix2 p q := ⟨i 0, i 1, eq_ix2 i⟩
  exact (h p q).trans (mm1_at l r p q)

/-- Entry (p, q) of the product `mm2` is the sum over k of left (p, k) times right (k, q). -/
theorem mm2_at (l : S100000x128.Idx → EReal) (r : S128x64.Idx → EReal) (p : Fin 100000) (q : Fin 64) :
    ∑ k : Fin 128, l (ix2 p k) * r (ix2 k q) = mm2 (F := Ideal) l r (ix2 p q) := by
  unfold mm2
  refine Eq.symm ((Ideal.dotGeneral_apply _ _ _ _ _ _).trans ?_)
  dot_rows dot_S100000x128_S128x64_S100000x64_1_0_0_1_n_n S100000x128 S128x64 128

/-- An array whose entry (p, q) is that sum, for every p and q, is the product. -/
theorem mm2_ext (l : S100000x128.Idx → EReal) (r : S128x64.Idx → EReal) (o : S100000x64.Idx → EReal)
    (h : ∀ (p : Fin 100000) (q : Fin 64), o (ix2 p q) = ∑ k : Fin 128, l (ix2 p k) * r (ix2 k q)) :
    o = mm2 (F := Ideal) l r := by
  funext i
  obtain ⟨p, q, rfl⟩ : ∃ (p : Fin 100000) (q : Fin 64), i = ix2 p q := ⟨i 0, i 1, eq_ix2 i⟩
  exact (h p q).trans (mm2_at l r p q)

/-- Entry (p, q) of the product `mm3` is the sum over k of left (p, k) times right (k, q). -/
theorem mm3_at (l : S100000x64.Idx → EReal) (r : S64x64.Idx → EReal) (p : Fin 100000) (q : Fin 64) :
    ∑ k : Fin 64, l (ix2 p k) * r (ix2 k q) = mm3 (F := Ideal) l r (ix2 p q) := by
  unfold mm3
  refine Eq.symm ((Ideal.dotGeneral_apply _ _ _ _ _ _).trans ?_)
  dot_rows dot_S100000x64_S64x64_S100000x64_1_0_0_1_n_n S100000x64 S64x64 64

/-- An array whose entry (p, q) is that sum, for every p and q, is the product. -/
theorem mm3_ext (l : S100000x64.Idx → EReal) (r : S64x64.Idx → EReal) (o : S100000x64.Idx → EReal)
    (h : ∀ (p : Fin 100000) (q : Fin 64), o (ix2 p q) = ∑ k : Fin 64, l (ix2 p k) * r (ix2 k q)) :
    o = mm3 (F := Ideal) l r := by
  funext i
  obtain ⟨p, q, rfl⟩ : ∃ (p : Fin 100000) (q : Fin 64), i = ix2 p q := ⟨i 0, i 1, eq_ix2 i⟩
  exact (h p q).trans (mm3_at l r p q)

/-- A bias of 64 entries added to every row: entry (p, q) gains the bias's entry q. -/
theorem bias64_at (a : S100000x64.Idx → EReal) (b : S64.Idx → EReal) (p : Fin 100000) (q : Fin 64) :
    a (ix2 p q) + b (ix1 q) = bias64 (F := Ideal) a b (ix2 p q) := by
  unfold bias64
  refine Eq.symm ((addf_apply _ _ _).trans ?_)
  refine congrArg (a (ix2 p q) + ·) ?_
  refine (broadcastInDim_apply _ _ _ (ix2 p q) (ix2 (0 : Fin 1) q) (fun ax => by match ax with | ⟨0, _⟩ => rfl | ⟨1, _⟩ => rfl)).trans ?_
  exact broadcastInDim_apply _ _ _ (ix2 (0 : Fin 1) q) (ix1 q) (fun ax => by match ax with | ⟨0, _⟩ => rfl)

/-- The dense layer: an array whose entry (p, q) is the row-by-column sum plus entry (0, q) of the bias laid
    out as a row is the product with the bias added to every row afterwards. -/
theorem dense_ext (l : S100000x64.Idx → EReal) (r : S64x64.Idx → EReal) (b : S64.Idx → EReal) (brow : S1x64.Idx → EReal)
    (o : S100000x64.Idx → EReal) (hc : S64.ShapeCasts S1x64) (hb : brow = shapeCast S1x64 b hc)
    (h : ∀ (p : Fin 100000) (q : Fin 64), o (ix2 p q) = (∑ k : Fin 64, l (ix2 p k) * r (ix2 k q)) + brow (ix2 (0 : Fin 1) q)) :
    o = bias64 (F := Ideal) (mm3 (F := Ideal) l r) b := by
  funext i
  obtain ⟨p, q, rfl⟩ : ∃ (p : Fin 100000) (q : Fin 64), i = ix2 p q := ⟨i 0, i 1, eq_ix2 i⟩
  refine (h p q).trans ?_
  rw [hb, Cert.RowCast.shapeCast_row_apply b hc (0 : Fin 1) q, mm3_at l r p q]
  exact bias64_at _ b p q

end Cert.Gcn

end
-- ==== Proof.LibUnitZero.lean ====
/-
  Two readings through a whole buffer's own view, at any value type.

  A memref that is a whole buffer, held at the contents that read as X, loaded through the unit-stride rectangle at
  zero offsets of the buffer's own sizes, reads X; and one store through that rectangle, read back through the view,
  is the stored payload, whatever the buffer held before.
-/
import Idealize.ShloMosaic.Lib.Pipeline.FrameBody
import Idealize.ShloMosaic.Lib.Pipeline.Frame
import Idealize.ShloMosaic.Lib.Pipeline.Value

noncomputable section

namespace Idealize.ShloMosaic

open Idealize.SL Idealize.SL.Sem

/-- The rank-2 zero offsets, spelt as a literal vector, are the constant zero function. -/
theorem zeroOff2 : (![0, 0] : Fin 2 → ℕ) = fun _ => 0 := by funext a; fin_cases a <;> rfl
/-- The rank-3 zero offsets likewise. -/
theorem zeroOff3 : (![0, 0, 0] : Fin 3 → ℕ) = fun _ => 0 := by funext a; fin_cases a <;> rfl

namespace View

variable {Val : EltTy → Type} {S : Shape} {e : EltTy} {sig : RefSig} {κ : Kind} {sp : Space}

/-- One store through the whole-shape rectangle at zero offsets, read back through the view: the payload. -/
theorem read_writes_unit_zero [∀ e, Nonempty (Val e)] (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : Piece Val S e)]) = w := by
  rw [View.read_writes_eq_canon v f _ (fun y => ⟨_, List.mem_singleton_self _, View.mem_set_unit_zero h inb y⟩),
    View.canon_unit_zero h inb]

end View

namespace Memref.IsWhole

variable {Val : EltTy → Type} {S : Shape} {e : EltTy} {sig : RefSig} {κ : Kind} {sp : Space}

/-- A whole memref held at the contents that read as `X`, loaded through the whole-shape rectangle at zero offsets, reads `X`. -/
theorem readAt_unread_unit_zero {m : Memref sig κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Memref.IsWhole

end Idealize.ShloMosaic

end
-- ==== Proof.Region0.lean ====
/-
  Region 0 of the program, a row-tiled matrix product, read as mathematics.

  The region multiplies a [100000, 128] array (the left operand) by a [128, 128] array (the right operand). Its
  grid has ten points; point t loads rows 10000·t … 10000·t + 9999 of the left operand and the whole right operand,
  stores their product, taken into a zero accumulator, as one block, and that block is written back as rows
  10000·t … 10000·t + 9999 of the [100000, 128] output array.

  Proved here, at the ideal values (every float an extended real, every operation exact): whatever the input arrays
  hold when the region is entered, the output array after the region, read at (p, q), is the sum over k < 128 of
  left (p, k) · right (k, q). The steps: the stored block at one entry is that sum over the loaded blocks; the block
  indices of the three windows over the grid; what a point writes back is its block of the whole product array,
  each loaded block being read where the array holds it; the ten blocks cover the output array; so the output array
  is the product array.
-/
import proofs.«145735_j25048249270381_1_alg».proof.Proof.Gen.KernelIdeal.Frame
import proofs.«145735_j25048249270381_1_alg».proof.Proof.LibDotRows
import proofs.«145735_j25048249270381_1_alg».proof.Proof.LibUnitZero
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The value stored at one entry of a block -/

open Cert.Hand in
/-- The block stored at a point, read at (p, q): the product into a zero accumulator is the sum over the
    contracted index k of left (p, k) times right (k, q). -/
theorem stored0_at (l : Vec Ideal S10000x128 .bf16) (r : Vec Ideal S128x128 .bf16) (p : Fin 10000) (q : Fin 128) :
    k0_pay1 l r (ix2 p q) = ∑ k : Fin 128, l (ix2 p k) * r (ix2 k q) := by
  unfold k0_pay1
  simp only [shapeCast_self]
  refine (Ideal.matmul_constant_zero_apply (φ₁ := .bf16) (φ₂ := .bf16) dot_S10000x128_S128x128_S10000x128_1_0_0_1_n_n none l r (ix2 p q)).trans ?_
  dot_rows dot_S10000x128_S128x128_S10000x128_1_0_0_1_n_n S10000x128 S128x128 128

/-- The same at any index of the block, split into its two coordinates. -/
theorem stored0_idx (l : Vec Ideal S10000x128 .bf16) (r : Vec Ideal S128x128 .bf16) (y : S10000x128.Idx) :
    k0_pay1 l r y = ∑ k : Fin 128, l (ix2 (y 0) k) * r (ix2 k (y 1)) :=
  (congrArg (k0_pay1 l r) (eq_ix2 y)).trans (stored0_at l r (y 0) (y 1))

/-! ## The whole product array -/

/-- The product of a [100000, 128] array with a [128, 128] array: entry (i₀, i₁) is the sum over k of
    x (i₀, k) · w (k, i₁). -/
def prod0 (x : S100000x128.Idx → EReal) (w : S128x128.Idx → EReal) : S100000x128.Idx → EReal :=
  fun i => ∑ k : Fin 128, x (ix2 (i 0) k) * w (ix2 k (i 1))

/-- The product array read at (p, q). -/
theorem prod0_at (x : S100000x128.Idx → EReal) (w : S128x128.Idx → EReal) (p : Fin 100000) (q : Fin 128) :
    prod0 x w (ix2 p q) = ∑ k : Fin 128, x (ix2 p k) * w (ix2 k q) := rfl

/-! ## The blocks of the three windows -/

/-- The block indices over the grid: at point t the left operand's and the output's block is (t, 0), the right
    operand's (0, 0). -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two input arrays as the region finds them: entry
    (a, b) of the stored block is the sum over k of the left block at (a, k), which is the left array at
    (10000·t + a, k), times the right block at (k, b), which is the right array at (k, b). -/
theorem flushed0_eq (c : Dev nD) (t : Fin cfg0.N) :
    (dat0 (F := Ideal) V c).flushed 2 t
      = ((cfg0.win 2).blk t).view.read (Elt Ideal) (prod0 (V c main_v27) (V c main_v28)) := by
  show (cfg0.win 2).cut (grid0.coords t) ((dat0 V c).after 2 t) = _
  rw [after0_2]
  unfold out0_2
  rw [View.canon_unit_zero zeroOff2]
  simp only [View.ld_unit_zero (S := S10000x128) zeroOff2, View.ld_unit_zero (S := S128x128) zeroOff2]
  obtain ⟨e0, e1, e2, e3, e4, e5⟩ := block_index0 t
  funext y
  refine (stored0_idx (iblk0 V c 0 t) (iblk0 V c 1 t) y).trans ?_
  show _ = prod0 (V c main_v27) (V c main_v28) (((cfg0.win 2).blk t).view.emb y)
  unfold prod0
  refine Finset.sum_congr rfl fun k _ => ?_
  have hl : iblk0 V c 0 t (ix2 (y 0) k) = V c main_v27 (ix2 ((((cfg0.win 2).blk t).view.emb y) 0) k) := by
    show V c main_v27 (((cfg0.win 0).blk t).view.emb (ix2 (y 0) k)) = V c main_v27 _
    refine congrArg (V c main_v27) (funext fun a => Fin.ext ?_)
    match a with
    | ⟨0, _⟩ =>
      show win0_0.index t (0 : Fin 2) * 10000 + 1 * (y 0).val = win0_2.index t (0 : Fin 2) * 10000 + 1 * (y 0).val
      rw [e0, e4]
    | ⟨1, _⟩ =>
      show win0_0.index t (1 : Fin 2) * 128 + 1 * k.val = k.val
      rw [e1]; omega
  have hr : iblk0 V c 1 t (ix2 k (y 1)) = V c main_v28 (ix2 k ((((cfg0.win 2).blk t).view.emb y) 1)) := by
    show V c main_v28 (((cfg0.win 1).blk t).view.emb (ix2 k (y 1))) = V c main_v28 _
    refine congrArg (V c main_v28) (funext fun a => Fin.ext ?_)
    match a with
    | ⟨0, _⟩ =>
      show win0_1.index t (0 : Fin 2) * 128 + 1 * k.val = k.val
      rw [e2]; omega
    | ⟨1, _⟩ =>
      show win0_1.index t (1 : Fin 2) * 128 + 1 * (y 1).val = win0_2.index t (1 : Fin 2) * 128 + 1 * (y 1).val
      rw [e3, e5]
  rw [hl, hr]

/-! ## From the blocks to the array -/

/-- An index of the output array lies in point t's block iff each coordinate is in the block's range on its axis. -/
theorem mem_block0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v29).slice (win0_2.rect t)).set ↔ _
  rw [View.set_slice_whole, Rect.mem_set_unit]
  exact Iff.rfl

/-- Every index of the output array is in some point's block: row r is in the block of point r / 10000. -/
theorem cover0 (i : S100000x128.Idx) :
    ∃ t : Fin cfg0.N, (cfg0.win 2).flush t = true ∧ i ∈ ((cfg0.win 2).blk t).view.set := by
  have h0 : (i 0).val < 100000 := idx2_lt0 i
  have h1 : (i 1).val < 128 := idx2_lt1 i
  have hN : cfg0.N = 10 := N_0
  let t : Fin cfg0.N := ⟨(i 0).val / 10000, by rw [hN]; omega⟩
  have ht : t.val = (i 0).val / 10000 := rfl
  obtain ⟨e0, e1, e2, e3, e4, e5⟩ := block_index0 t
  refine ⟨t, flush0_2 t, ?_⟩
  rw [mem_block0]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 128 ≤ (i 1).val ∧ (i 1).val < win0_2.index t (1 : Fin 2) * 128 + 128
    rw [e5]; omega

/-- The output array after the region is the product of the two input arrays as the region finds them. -/
theorem region0_array (c : Dev nD) :
    (dat0 (F := Ideal) V c).arrAt 2 cfg0.N = prod0 (V c main_v27) (V c main_v28) :=
  (dat0 (F := Ideal) V c).arrAt_eq_of_cover 2 (prod0 (V c main_v27) (V c main_v28))
    (fun t _ => flushed0_eq V c t) cover0

/-- Region 0: the output array after the region, read at (p, q), is the sum over k of left (p, k) · right (k, q). -/
theorem region0_at (c : Dev nD) (x o : S100000x128.Idx → EReal) (w : S128x128.Idx → EReal)
    (hx : x = V c main_v27) (hw : w = V c main_v28) (ho : o = (dat0 (F := Ideal) V c).arrAt 2 cfg0.N)
    (p : Fin 100000) (q : Fin 128) :
    o (ix2 p q) = ∑ k : Fin 128, x (ix2 p k) * w (ix2 k q) := by
  subst hx hw ho
  rw [region0_array]
  exact prod0_at _ _ p q

end Cert.KernelIdeal.Hand

end
-- ==== Proof.Region1.lean ====
/-
  Region 1 of the program, a row-tiled matrix product, read as mathematics.

  The region multiplies a [100000, 128] array (the left operand) by a [128, 64] array (the right operand). Its
  grid has ten points; point t loads rows 10000·t … 10000·t + 9999 of the left operand and the whole right operand,
  stores their product, taken into a zero accumulator, as one block, and that block is written back as rows
  10000·t … 10000·t + 9999 of the [100000, 64] output array.

  Proved here, at the ideal values (every float an extended real, every operation exact): whatever the input arrays
  hold when the region is entered, the output array after the region, read at (p, q), is the sum over k < 128 of
  left (p, k) · right (k, q). The steps: the stored block at one entry is that sum over the loaded blocks; the block
  indices of the three windows over the grid; what a point writes back is its block of the whole product array,
  each loaded block being read where the array holds it; the ten blocks cover the output array; so the output array
  is the product array.
-/
import proofs.«145735_j25048249270381_1_alg».proof.Proof.Gen.KernelIdeal.Frame
import proofs.«145735_j25048249270381_1_alg».proof.Proof.LibDotRows
import proofs.«145735_j25048249270381_1_alg».proof.Proof.LibUnitZero
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The value stored at one entry of a block -/

open Cert.Hand in
/-- The block stored at a point, read at (p, q): the product into a zero accumulator is the sum over the
    contracted index k of left (p, k) times right (k, q). -/
theorem stored1_at (l : Vec Ideal S10000x128 .bf16) (r : Vec Ideal S128x64 .bf16) (p : Fin 10000) (q : Fin 64) :
    k1_pay1 l r (ix2 p q) = ∑ k : Fin 128, l (ix2 p k) * r (ix2 k q) := by
  unfold k1_pay1
  simp only [shapeCast_self]
  refine (Ideal.matmul_constant_zero_apply (φ₁ := .bf16) (φ₂ := .bf16) dot_S10000x128_S128x64_S10000x64_1_0_0_1_n_n none l r (ix2 p q)).trans ?_
  dot_rows dot_S10000x128_S128x64_S10000x64_1_0_0_1_n_n S10000x128 S128x64 128

/-- The same at any index of the block, split into its two coordinates. -/
theorem stored1_idx (l : Vec Ideal S10000x128 .bf16) (r : Vec Ideal S128x64 .bf16) (y : S10000x64.Idx) :
    k1_pay1 l r y = ∑ k : Fin 128, l (ix2 (y 0) k) * r (ix2 k (y 1)) :=
  (congrArg (k1_pay1 l r) (eq_ix2 y)).trans (stored1_at l r (y 0) (y 1))

/-! ## The whole product array -/

/-- The product of a [100000, 128] array with a [128, 64] array: entry (i₀, i₁) is the sum over k of
    x (i₀, k) · w (k, i₁). -/
def prod1 (x : S100000x128.Idx → EReal) (w : S128x64.Idx → EReal) : S100000x64.Idx → EReal :=
  fun i => ∑ k : Fin 128, x (ix2 (i 0) k) * w (ix2 k (i 1))

/-- The product array read at (p, q). -/
theorem prod1_at (x : S100000x128.Idx → EReal) (w : S128x64.Idx → EReal) (p : Fin 100000) (q : Fin 64) :
    prod1 x w (ix2 p q) = ∑ k : Fin 128, x (ix2 p k) * w (ix2 k q) := rfl

/-! ## The blocks of the three windows -/

/-- The block indices over the grid: at point t the left operand's and the output's block is (t, 0), the right
    operand's (0, 0). -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the two input arrays as the region finds them: entry
    (a, b) of the stored block is the sum over k of the left block at (a, k), which is the left array at
    (10000·t + a, k), times the right block at (k, b), which is the right array at (k, b). -/
theorem flushed1_eq (c : Dev nD) (t : Fin cfg1.N) :
    (dat1 (F := Ideal) V c).flushed 2 t
      = ((cfg1.win 2).blk t).view.read (Elt Ideal) (prod1 (V c main_v47) (V c main_v48)) := by
  show (cfg1.win 2).cut (grid1.coords t) ((dat1 V c).after 2 t) = _
  rw [after1_2]
  unfold out1_2
  rw [View.canon_unit_zero zeroOff2]
  simp only [View.ld_unit_zero (S := S10000x128) zeroOff2, View.ld_unit_zero (S := S128x64) zeroOff2]
  obtain ⟨e0, e1, e2, e3, e4, e5⟩ := block_index1 t
  funext y
  refine (stored1_idx (iblk1 V c 0 t) (iblk1 V c 1 t) y).trans ?_
  show _ = prod1 (V c main_v47) (V c main_v48) (((cfg1.win 2).blk t).view.emb y)
  unfold prod1
  refine Finset.sum_congr rfl fun k _ => ?_
  have hl : iblk1 V c 0 t (ix2 (y 0) k) = V c main_v47 (ix2 ((((cfg1.win 2).blk t).view.emb y) 0) k) := by
    show V c main_v47 (((cfg1.win 0).blk t).view.emb (ix2 (y 0) k)) = V c main_v47 _
    refine congrArg (V c main_v47) (funext fun a => Fin.ext ?_)
    match a with
    | ⟨0, _⟩ =>
      show win1_0.index t (0 : Fin 2) * 10000 + 1 * (y 0).val = win1_2.index t (0 : Fin 2) * 10000 + 1 * (y 0).val
      rw [e0, e4]
    | ⟨1, _⟩ =>
      show win1_0.index t (1 : Fin 2) * 128 + 1 * k.val = k.val
      rw [e1]; omega
  have hr : iblk1 V c 1 t (ix2 k (y 1)) = V c main_v48 (ix2 k ((((cfg1.win 2).blk t).view.emb y) 1)) := by
    show V c main_v48 (((cfg1.win 1).blk t).view.emb (ix2 k (y 1))) = V c main_v48 _
    refine congrArg (V c main_v48) (funext fun a => Fin.ext ?_)
    match a with
    | ⟨0, _⟩ =>
      show win1_1.index t (0 : Fin 2) * 128 + 1 * k.val = k.val
      rw [e2]; omega
    | ⟨1, _⟩ =>
      show win1_1.index t (1 : Fin 2) * 64 + 1 * (y 1).val = win1_2.index t (1 : Fin 2) * 64 + 1 * (y 1).val
      rw [e3, e5]
  rw [hl, hr]

/-! ## From the blocks to the array -/

/-- An index of the output array lies in point t's block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v49).slice (win1_2.rect t)).set ↔ _
  rw [View.set_slice_whole, Rect.mem_set_unit]
  exact Iff.rfl

/-- Every index of the output array is in some point's block: row r is in the block of point r / 10000. -/
theorem cover1 (i : S100000x64.Idx) :
    ∃ t : Fin cfg1.N, (cfg1.win 2).flush t = true ∧ i ∈ ((cfg1.win 2).blk t).view.set := by
  have h0 : (i 0).val < 100000 := idx2_lt0 i
  have h1 : (i 1).val < 64 := idx2_lt1 i
  have hN : cfg1.N = 10 := N_1
  let t : Fin cfg1.N := ⟨(i 0).val / 10000, by rw [hN]; omega⟩
  have ht : t.val = (i 0).val / 10000 := rfl
  obtain ⟨e0, e1, e2, e3, e4, e5⟩ := block_index1 t
  refine ⟨t, flush1_2 t, ?_⟩
  rw [mem_block1]
  intro a
  match a with
  | ⟨0, _⟩ =>
    show win1_2.index t (0 : Fin 2) * 10000 ≤ (i 0).val ∧ (i 0).val < win1_2.index t (0 : Fin 2) * 10000 + 10000
    rw [e4, ht]; omega
  | ⟨1, _⟩ =>
    show win1_2.index t (1 : Fin 2) * 64 ≤ (i 1).val ∧ (i 1).val < win1_2.index t (1 : Fin 2) * 64 + 64
    rw [e5]; omega

/-- The output array after the region is the product of the two input arrays as the region finds them. -/
theorem region1_array (c : Dev nD) :
    (dat1 (F := Ideal) V c).arrAt 2 cfg1.N = prod1 (V c main_v47) (V c main_v48) :=
  (dat1 (F := Ideal) V c).arrAt_eq_of_cover 2 (prod1 (V c main_v47) (V c main_v48))
    (fun t _ => flushed1_eq V c t) cover1

/-- Region 1: the output array after the region, read at (p, q), is the sum over k of left (p, k) · right (k, q). -/
theorem region1_at (c : Dev nD) (x : S100000x128.Idx → EReal) (w : S128x64.Idx → EReal) (o : S100000x64.Idx → EReal)
    (hx : x = V c main_v47) (hw : w = V c main_v48) (ho : o = (dat1 (F := Ideal) V c).arrAt 2 cfg1.N)
    (p : Fin 100000) (q : Fin 64) :
    o (ix2 p q) = ∑ k : Fin 128, x (ix2 p k) * w (ix2 k q) := by
  subst hx hw ho
  rw [region1_array]
  exact prod1_at _ _ p q

end Cert.KernelIdeal.Hand

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.Region2.lean ====
/-
  The third region of the kernel program: a row-tiled matrix product with a bias row.

  The region runs over a grid of 10 points. Point t takes rows 10000·t … 10000·t + 9999 of the left operand
  (a [100000, 64] array), the whole right operand ([64, 64]) and the whole bias row ([1, 64]), and stores into rows
  10000·t … 10000·t + 9999 of the output the product of its row block with the right operand plus the bias row
  repeated in every row. Proved here, at the ideal (extended-real, exact) arithmetic: after the region the output
  array, read at (p, q), is the sum over k of left (p, k) · right (k, q), plus the bias row's entry q.

  The steps: the stored payload read at an index of the block; the four windows' block indices at a grid point; each
  operand block as the part of its array it is cut from; what a point writes back as a block of one whole-array
  function; the ten blocks cover the array; hence the array after the region is that function.
-/
import proofs.«145735_j25048249270381_1_alg».proof.Proof.Gen.KernelIdeal.Frame
import proofs.«145735_j25048249270381_1_alg».proof.Proof.LibDotRows
import proofs.«145735_j25048249270381_1_alg».proof.Proof.LibUnitZero
import proofs.«145735_j25048249270381_1_alg».proof.Proof.LibRowBroadcast
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.SL.Sem Idealize.ShloMosaic.ValueIdx
open Idealize.ShloMosaic.Pipeline (Dat)
open Cert.KernelIdeal Cert.KernelIdeal.Gen
variable (V : (c : Dev nD) → (b : Ref sig .tc) → Buf (Elt Ideal) ((c : Thread nD τ).loc b))

/-- The contraction of the left operand's axis 1 with the right operand's axis 0, summed over the contraction
    index, is the sum over k of left (p, k) · right (k, q) at the output entry (p, q). -/
theorem contraction2_rows (l : FVec Ideal S10000x64 .bf16) (r : FVec Ideal S64x64 .bf16) (p : Fin 10000) (q : Fin 64) :
    (∑ c : dot_S10000x64_S64x64_S10000x64_1_0_0_1_n_n.contr.Idx,
        l (dot_S10000x64_S64x64_S10000x64_1_0_0_1_n_n.lhsIdx (ix2 p q) c)
          * r (dot_S10000x64_S64x64_S10000x64_1_0_0_1_n_n.rhsIdx (ix2 p q) c))
      = ∑ k : Fin 64, l (ix2 p k) * r (ix2 k q) := by
  dot_rows dot_S10000x64_S64x64_S10000x64_1_0_0_1_n_n S10000x64 S64x64 64

/-- The stored payload at (p, q): the casts to the same shape are the identity, the matrix product into the zero
    accumulator is the sum of products over the contracted index, the bias row broadcast down the rows reads its
    entry q, and the two are added. -/
theorem payload2_apply (x0 : FVec Ideal S10000x64 .bf16) (x1 : FVec Ideal S64x64 .bf16) (x2 : FVec Ideal S1x64 .f32)
    (p : Fin 10000) (q : Fin 64) :
    k2_pay1 (F := Ideal) x0 x1 x2 (ix2 p q) = (∑ k : Fin 64, x0 (ix2 p k) * x1 (ix2 k q)) + x2 (ix2 (0 : Fin 1) q) := by
  unfold k2_pay1
  simp only [shapeCast_self]
  refine (addf_apply _ _ _).trans ?_
  refine congrArg₂ (· + ·) ?_ ?_
  · exact (Ideal.matmul_constant_zero_apply dot_S10000x64_S64x64_S10000x64_1_0_0_1_n_n none x0 x1 (ix2 p q)).trans
      (contraction2_rows x0 x1 p q)
  · exact Cert.RowBroadcast.broadcastTo_1b_ab_apply x2 broadcasts_S1x64_S10000x64 p q

/-- The product with the bias row as one function of whole arrays: entry (p, q) of the output is the sum over k
    of left (p, k) · right (k, q), plus the bias row's entry q. -/
def rowsTimesPlusBias (x : S100000x64.Idx → EReal) (w : S64x64.Idx → EReal) (b : S1x64.Idx → EReal) :
    S100000x64.Idx → EReal :=
  fun i => (∑ k : Fin 64, x (ix2 (⟨(i 0).val, idx2_lt0 i⟩ : Fin 100000) k) * w (ix2 k (⟨(i 1).val, idx2_lt1 i⟩ : Fin 64)))
    + b (ix2 (0 : Fin 1) (⟨(i 1).val, idx2_lt1 i⟩ : Fin 64))

/-- The block indices of the four windows at grid point t: the left operand's and the output's row block is t,
    column block 0; the right operand and the bias row are one block each. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at point t is rows 10000·t … 10000·t + 9999 of the left operand. -/
theorem leftBlock2_apply (c : Dev nD) (t : Fin cfg2.N) (y0 : Fin 10000) (k : Fin 64) (r : Fin 100000)
    (hr : r.val = 10000 * t.val + y0.val) :
    (iblk2 V c 0 t : Vec Ideal S10000x64 .bf16) (ix2 y0 k) = (V c main_v66 : S100000x64.Idx → EReal) (ix2 r k) := by
  obtain ⟨e0, e1, -⟩ := blockIndex2 t
  unfold iblk2
  rw [View.read_apply]
  show V c main_v66 (((cfg2.win 0).blk t).view.emb (ix2 y0 k)) = V c main_v66 (ix2 r k)
  congr 1
  funext a
  apply Fin.ext
  match a with
  | ⟨0, _⟩ => show win2_0.index t (0 : Fin 2) * 10000 + 1 * y0.val = r.val; rw [e0, hr]; omega
  | ⟨1, _⟩ => show win2_0.index t (1 : Fin 2) * 64 + 1 * k.val = k.val; rw [e1]; omega

/-- The right operand's block at every point is the whole right operand. -/
theorem rightBlock2_apply (c : Dev nD) (t : Fin cfg2.N) (k q : Fin 64) :
    (iblk2 V c 1 t : Vec Ideal S64x64 .bf16) (ix2 k q) = (V c main_v67 : S64x64.Idx → EReal) (ix2 k q) := by
  obtain ⟨-, -, e0, e1, -⟩ := blockIndex2 t
  unfold iblk2
  rw [View.read_apply]
  show V c main_v67 (((cfg2.win 1).blk t).view.emb (ix2 k q)) = V c main_v67 (ix2 k q)
  congr 1
  funext a
  apply Fin.ext
  match a with
  | ⟨0, _⟩ => show win2_1.index t (0 : Fin 2) * 64 + 1 * k.val = k.val; rw [e0]; omega
  | ⟨1, _⟩ => show win2_1.index t (1 : Fin 2) * 64 + 1 * q.val = q.val; rw [e1]; omega

/-- The bias row's block at every point is the whole bias row. -/
theorem biasBlock2_apply (c : Dev nD) (t : Fin cfg2.N) (u : Fin 1) (q : Fin 64) :
    (iblk2 V c 2 t : Vec Ideal S1x64 .f32) (ix2 u q) = (V c main_v68 : S1x64.Idx → EReal) (ix2 u q) := by
  obtain ⟨-, -, -, -, e0, e1, -⟩ := blockIndex2 t
  unfold iblk2
  rw [View.read_apply]
  show V c main_v68 (((cfg2.win 2).blk t).view.emb (ix2 u q)) = V c main_v68 (ix2 u q)
  congr 1
  funext a
  apply Fin.ext
  match a with
  | ⟨0, _⟩ => show win2_2.index t (0 : Fin 2) * 1 + 1 * u.val = u.val; rw [e0]; omega
  | ⟨1, _⟩ => show win2_2.index t (1 : Fin 2) * 64 + 1 * q.val = q.val; rw [e1]; omega

/-- What point t writes back into the output is block t of the whole-array function of the operands as the
    region finds them: the stored payload at (y0, y1) is the sum of products over the contracted index plus the
    bias entry, and each operand's block reads its array at the place the output's block does. -/
theorem flushed2_eq (c : Dev nD) (t : Fin cfg2.N) :
    (dat2 (F := Ideal) V c).flushed 3 t
      = ((cfg2.win 3).blk t).view.read (Elt Ideal) (rowsTimesPlusBias (V c main_v66) (V c main_v67) (V c main_v68)) := by
  show (cfg2.win 3).cut (grid2.coords t) ((dat2 (F := Ideal) V c).after 3 t) = _
  rw [after2_3]
  unfold out2_3
  rw [View.canon_unit_zero zeroOff2]
  simp only [View.ld_unit_zero (S := S10000x64) zeroOff2, View.ld_unit_zero (S := S64x64) zeroOff2,
    View.ld_unit_zero (S := S1x64) zeroOff2]
  obtain ⟨-, -, -, -, -, -, e0, e1⟩ := blockIndex2 t
  funext y
  obtain ⟨y0, y1, rfl⟩ : ∃ (y0 : Fin 10000) (y1 : Fin 64), y = ix2 y0 y1 := ⟨y 0, y 1, eq_ix2 y⟩
  refine (payload2_apply (iblk2 V c 0 t) (iblk2 V c 1 t) (iblk2 V c 2 t) y0 y1).trans ?_
  rw [View.read_apply]
  have h0 : ((((cfg2.win 3).blk t).view.emb (ix2 y0 y1)) 0).val = 10000 * t.val + y0.val := by
    show win2_3.index t (0 : Fin 2) * 10000 + 1 * y0.val = _
    rw [e0]; omega
  have h1 : ((((cfg2.win 3).blk t).view.emb (ix2 y0 y1)) 1).val = y1.val := by
    show win2_3.index t (1 : Fin 2) * 64 + 1 * y1.val = _
    rw [e1]; omega
  unfold rowsTimesPlusBias
  refine congrArg₂ (· + ·) (Finset.sum_congr rfl fun k _ => congrArg₂ (· * ·) ?_ ?_) ?_
  · exact leftBlock2_apply V c t y0 k _ h0
  · exact (rightBlock2_apply V c t k y1).trans (congrArg (V c main_v67) (congrArg (ix2 k) (Fin.ext h1.symm)))
  · exact (biasBlock2_apply V c t 0 y1).trans (congrArg (V c main_v68) (congrArg (ix2 (0 : Fin 1)) (Fin.ext h1.symm)))

/-- An index of the output array is in point t's block iff each coordinate is in the block's range on its axis. -/
theorem mem_outBlock2 (t : Fin cfg2.N) (i : S100000x64.Idx) :
    i ∈ ((cfg2.win 3).blk t).view.set
      ↔ ∀ a : Fin 2, win2_3.index t a * S10000x64.size a ≤ (i a).val
          ∧ (i a).val < win2_3.index t a * S10000x64.size a + S10000x64.size a := by
  show i ∈ ((View.whole main_v69).slice (win2_3.rect t)).set ↔ _
  rw [View.set_slice_whole, Rect.mem_set_unit]
  exact Iff.rfl

/-- The ten row blocks cover the output array: row r lies in the block of point r / 10000. -/
theorem outBlocks2_cover (i : S100000x64.Idx) :
    ∃ t : Fin cfg2.N, (cfg2.win 3).flush t = true ∧ i ∈ ((cfg2.win 3).blk t).view.set := by
  have hi0 : (i 0).val < 100000 := idx2_lt0 i
  have hi1 : (i 1).val < 64 := idx2_lt1 i
  have hN : grid2.N = 10 := N_2
  obtain ⟨t, ht⟩ : ∃ t : Fin cfg2.N, t.val = (i 0).val / 10000 :=
    ⟨⟨(i 0).val / 10000, by show (i 0).val / 10000 < grid2.N; rw [hN]; omega⟩, rfl⟩
  obtain ⟨-, -, -, -, -, -, e0, e1⟩ := blockIndex2 t
  refine ⟨t, flush2_3 t, ?_⟩
  rw [mem_outBlock2]
  intro a
  match a with
  | ⟨0, _⟩ =>
    show win2_3.index t (0 : Fin 2) * 10000 ≤ (i 0).val ∧ (i 0).val < win2_3.index t (0 : Fin 2) * 10000 + 10000
    rw [e0, ht]; omega
  | ⟨1, _⟩ =>
    show win2_3.index t (1 : Fin 2) * 64 ≤ (i 1).val ∧ (i 1).val < win2_3.index t (1 : Fin 2) * 64 + 64
    rw [e1]; omega

/-- The output array after the region is the whole-array function of the operands as the region finds them. -/
theorem out2_final (c : Dev nD) :
    (dat2 (F := Ideal) V c).arrAt 3 cfg2.N = rowsTimesPlusBias (V c main_v66) (V c main_v67) (V c main_v68) :=
  (dat2 (F := Ideal) V c).arrAt_eq_of_cover 3 (rowsTimesPlusBias (V c main_v66) (V c main_v67) (V c main_v68))
    (fun t _ => flushed2_eq V c t) outBlocks2_cover

/-- Region 2: the output array after the region, read at (p, q), is the sum over k of left (p, k) · right (k, q)
    plus the bias row's entry q. -/
theorem region2_at (c : Dev nD) (x o : S100000x64.Idx → EReal) (w : S64x64.Idx → EReal) (b : S1x64.Idx → EReal)
    (hx : x = V c main_v66) (hw : w = V c main_v67) (hb : b = V c main_v68) (ho : o = (dat2 (F := Ideal) V c).arrAt 3 cfg2.N)
    (p : Fin 100000) (q : Fin 64) :
    o (ix2 p q) = (∑ k : Fin 64, x (ix2 p k) * w (ix2 k q)) + b (ix2 (0 : Fin 1) q) := by
  subst hx hw hb ho
  refine (congrFun (out2_final V c) (ix2 p q)).trans ?_
  rfl

end Cert.KernelIdeal.Hand
end
-- ==== Proof.KernelValue.lean ====
/-
  The kernel program's result array is the network of the argument arrays.

  Walking the program's eight segments in order: the host operations before the first product build, from the
  edge list alone, the source and target node of every message and the messages' weights; these three vectors
  and the biases are written by nothing afterwards, so every later segment finds them unchanged. Each product's
  output array, tile by tile, has at (p, q) the sum over k of left (p, k) · right (k, q), which makes it the
  whole product of its operand arrays; the operands are the previous layer's output and a weight matrix,
  narrowed in float format, which changes nothing at the extended reals. The third product adds entry q of the
  last bias, laid out as a row, inside each tile: the product plus the bias added to every row.
-/
import proofs.«145735_j25048249270381_1_alg».proof.Proof.Gen.KernelIdeal.Frame
import proofs.«145735_j25048249270381_1_alg».proof.Proof.Host0
import proofs.«145735_j25048249270381_1_alg».proof.Proof.Host1
import proofs.«145735_j25048249270381_1_alg».proof.Proof.Host2
import proofs.«145735_j25048249270381_1_alg».proof.Proof.SpecAt
import proofs.«145735_j25048249270381_1_alg».proof.Proof.Region0
import proofs.«145735_j25048249270381_1_alg».proof.Proof.Region1
import proofs.«145735_j25048249270381_1_alg».proof.Proof.Region2
set_option maxRecDepth 16384

noncomputable section

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

/-- At the extended reals narrowing the float format changes nothing. -/
theorem truncf_ideal {s : Shape} {φ : FTy} (ψ : FTy) (x : FVec Ideal s φ) (h : ψ.bits < φ.bits) :
    truncf (F := Ideal) ψ x h = x := rfl

/-! ## Entering the first product: the edge list's three vectors, and the operands -/

theorem w1_v3 : W1 m ρ c main_v3 = (Cert.Gcn.src (m ((c.tc : Thread nD τ).loc main_arg1))) := h0_v3 (W0 m ρ c)
theorem w1_v6 : W1 m ρ c main_v6 = (Cert.Gcn.dst (m ((c.tc : Thread nD τ).loc main_arg1))) := h0_v6 (W0 m ρ c)
theorem w1_v26 : W1 m ρ c main_v26 = (Cert.Gcn.norm (Cert.Gcn.src (m ((c.tc : Thread nD τ).loc main_arg1))) (Cert.Gcn.dst (m ((c.tc : Thread nD τ).loc main_arg1)))) := h0_v26 (W0 m ρ c)
theorem w1_arg3 : W1 m ρ c main_arg3 = (m ((c.tc : Thread nD τ).loc main_arg3)) := h0_arg3 (W0 m ρ c)
theorem w1_arg4 : W1 m ρ c main_arg4 = (m ((c.tc : Thread nD τ).loc main_arg4)) := h0_arg4 (W0 m ρ c)
theorem w1_arg5 : W1 m ρ c main_arg5 = (m ((c.tc : Thread nD τ).loc main_arg5)) := h0_arg5 (W0 m ρ c)
theorem w1_arg6 : W1 m ρ c main_arg6 = (m ((c.tc : Thread nD τ).loc main_arg6)) := h0_arg6 (W0 m ρ c)
theorem w1_arg7 : W1 m ρ c main_arg7 = (m ((c.tc : Thread nD τ).loc main_arg7)) := h0_arg7 (W0 m ρ c)
/-- The first product's operands are the node features and the first weight matrix. -/
theorem v1_v27 : @Eq (S100000x128.Idx → EReal) (m ((c.tc : Thread nD τ).loc main_arg0)) (V1 m ρ c main_v27) :=
  ((h0_v27 (W0 m ρ c)).trans (truncf_ideal (φ := .f32) .bf16 _ bitsLt_bf16_f32)).symm
theorem v1_v28 : @Eq (S128x128.Idx → EReal) (m ((c.tc : Thread nD τ).loc main_arg2)) (V1 m ρ c main_v28) :=
  ((h0_v28 (W0 m ρ c)).trans (truncf_ideal (φ := .f32) .bf16 _ bitsLt_bf16_f32)).symm

/-! ## After the first product -/

/-- The first product's output array: tile by tile, the rows-by-columns product of the features and the weights. -/
theorem w2_v29 : W2 m ρ c main_v29 = (Cert.Gcn.mm1 (m ((c.tc : Thread nD τ).loc main_arg0)) (m ((c.tc : Thread nD τ).loc main_arg2))) :=
  (W2_arr m ρ c 2).trans (Cert.Gcn.mm1_ext _ _ _ fun p q =>
    region0_at (V1 m ρ) c _ _ _ (v1_v27 m ρ c) (v1_v28 m ρ c) rfl p q)
theorem w2_v3 : W2 m ρ c main_v3 = (Cert.Gcn.src (m ((c.tc : Thread nD τ).loc main_arg1))) :=
  (W2_of_ne m ρ c main_v3 (by decide)).trans (w1_v3 m ρ c)
theorem w2_v6 : W2 m ρ c main_v6 = (Cert.Gcn.dst (m ((c.tc : Thread nD τ).loc main_arg1))) :=
  (W2_of_ne m ρ c main_v6 (by decide)).trans (w1_v6 m ρ c)
theorem w2_v26 : W2 m ρ c main_v26 = (Cert.Gcn.norm (Cert.Gcn.src (m ((c.tc : Thread nD τ).loc main_arg1))) (Cert.Gcn.dst (m ((c.tc : Thread nD τ).loc main_arg1)))) :=
  (W2_of_ne m ρ c main_v26 (by decide)).trans (w1_v26 m ρ c)
theorem w2_arg3 : W2 m ρ c main_arg3 = (m ((c.tc : Thread nD τ).loc main_arg3)) :=
  (W2_of_ne m ρ c main_arg3 (by decide)).trans (w1_arg3 m ρ c)
theorem w2_arg4 : W2 m ρ c main_arg4 = (m ((c.tc : Thread nD τ).loc main_arg4)) :=
  (W2_of_ne m ρ c main_arg4 (by decide)).trans (w1_arg4 m ρ c)
theorem w2_arg5 : W2 m ρ c main_arg5 = (m ((c.tc : Thread nD τ).loc main_arg5)) :=
  (W2_of_ne m ρ c main_arg5 (by decide)).trans (w1_arg5 m ρ c)
theorem w2_arg6 : W2 m ρ c main_arg6 = (m ((c.tc : Thread nD τ).loc main_arg6)) :=
  (W2_of_ne m ρ c main_arg6 (by decide)).trans (w1_arg6 m ρ c)
theorem w2_arg7 : W2 m ρ c main_arg7 = (m ((c.tc : Thread nD τ).loc main_arg7)) :=
  (W2_of_ne m ρ c main_arg7 (by decide)).trans (w1_arg7 m ρ c)

/-! ## Entering the second product -/

/-- Its left operand is the first layer's output. -/
theorem v5_v47 : @Eq (S100000x128.Idx → EReal) (Cert.Gcn.layer1 (Cert.Gcn.mm1 (m ((c.tc : Thread nD τ).loc main_arg0)) (m ((c.tc : Thread nD τ).loc main_arg2))) (m ((c.tc : Thread nD τ).loc main_arg1)) (m ((c.tc : Thread nD τ).loc main_arg3))) (V5 m ρ c main_v47) := by
  refine Eq.symm ((h1_v47 (W2 m ρ c)).trans ((truncf_ideal (φ := .f32) .bf16 _ bitsLt_bf16_f32).trans ?_))
  rw [w2_v29 m ρ c, w2_v3 m ρ c, w2_v6 m ρ c, w2_v26 m ρ c, w2_arg3 m ρ c]
  rfl
/-- Its right operand is the second weight matrix. -/
theorem v5_v48 : @Eq (S128x64.Idx → EReal) (m ((c.tc : Thread nD τ).loc main_arg4)) (V5 m ρ c main_v48) :=
  ((h1_v48 (W2 m ρ c)).trans ((truncf_ideal (φ := .f32) .bf16 _ bitsLt_bf16_f32).trans (w2_arg4 m ρ c))).symm
theorem w5_v3 : W5 m ρ c main_v3 = (Cert.Gcn.src (m ((c.tc : Thread nD τ).loc main_arg1))) :=
  (h1_v3 (W2 m ρ c)).trans (w2_v3 m ρ c)
theorem w5_v6 : W5 m ρ c main_v6 = (Cert.Gcn.dst (m ((c.tc : Thread nD τ).loc main_arg1))) :=
  (h1_v6 (W2 m ρ c)).trans (w2_v6 m ρ c)
theorem w5_v26 : W5 m ρ c main_v26 = (Cert.Gcn.norm (Cert.Gcn.src (m ((c.tc : Thread nD τ).loc main_arg1))) (Cert.Gcn.dst (m ((c.tc : Thread nD τ).loc main_arg1)))) :=
  (h1_v26 (W2 m ρ c)).trans (w2_v26 m ρ c)
theorem w5_arg5 : W5 m ρ c main_arg5 = (m ((c.tc : Thread nD τ).loc main_arg5)) :=
  (h1_arg5 (W2 m ρ c)).trans (w2_arg5 m ρ c)
theorem w5_arg6 : W5 m ρ c main_arg6 = (m ((c.tc : Thread nD τ).loc main_arg6)) :=
  (h1_arg6 (W2 m ρ c)).trans (w2_arg6 m ρ c)
theorem w5_arg7 : W5 m ρ c main_arg7 = (m ((c.tc : Thread nD τ).loc main_arg7)) :=
  (h1_arg7 (W2 m ρ c)).trans (w2_arg7 m ρ c)

/-! ## After the second product -/

theorem w6_v49 : W6 m ρ c main_v49 = (Cert.Gcn.mm2 (Cert.Gcn.layer1 (Cert.Gcn.mm1 (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4))) :=
  (W6_arr m ρ c 2).trans (Cert.Gcn.mm2_ext _ _ _ fun p q =>
    region1_at (V5 m ρ) c _ _ _ (v5_v47 m ρ c) (v5_v48 m ρ c) rfl p q)
theorem w6_v3 : W6 m ρ c main_v3 = (Cert.Gcn.src (m ((c.tc : Thread nD τ).loc main_arg1))) :=
  (W6_of_ne m ρ c main_v3 (by decide)).trans (w5_v3 m ρ c)
theorem w6_v6 : W6 m ρ c main_v6 = (Cert.Gcn.dst (m ((c.tc : Thread nD τ).loc main_arg1))) :=
  (W6_of_ne m ρ c main_v6 (by decide)).trans (w5_v6 m ρ c)
theorem w6_v26 : W6 m ρ c main_v26 = (Cert.Gcn.norm (Cert.Gcn.src (m ((c.tc : Thread nD τ).loc main_arg1))) (Cert.Gcn.dst (m ((c.tc : Thread nD τ).loc main_arg1)))) :=
  (W6_of_ne m ρ c main_v26 (by decide)).trans (w5_v26 m ρ c)
theorem w6_arg5 : W6 m ρ c main_arg5 = (m ((c.tc : Thread nD τ).loc main_arg5)) :=
  (W6_of_ne m ρ c main_arg5 (by decide)).trans (w5_arg5 m ρ c)
theorem w6_arg6 : W6 m ρ c main_arg6 = (m ((c.tc : Thread nD τ).loc main_arg6)) :=
  (W6_of_ne m ρ c main_arg6 (by decide)).trans (w5_arg6 m ρ c)
theorem w6_arg7 : W6 m ρ c main_arg7 = (m ((c.tc : Thread nD τ).loc main_arg7)) :=
  (W6_of_ne m ρ c main_arg7 (by decide)).trans (w5_arg7 m ρ c)

/-! ## Entering the third product -/

/-- Its left operand is the second layer's output. -/
theorem v7_v66 : @Eq (S100000x64.Idx → EReal) (Cert.Gcn.layer2 (Cert.Gcn.mm2 (Cert.Gcn.layer1 (Cert.Gcn.mm1 (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4))) (m ((c.tc : Thread nD τ).loc main_arg1)) (m ((c.tc : Thread nD τ).loc main_arg5))) (V7 m ρ c main_v66) := by
  refine Eq.symm ((h2_v66 (W6 m ρ c)).trans ((truncf_ideal (φ := .f32) .bf16 _ bitsLt_bf16_f32).trans ?_))
  rw [w6_v49 m ρ c, w6_v3 m ρ c, w6_v6 m ρ c, w6_v26 m ρ c, w6_arg5 m ρ c]
  rfl
/-- Its right operand is the last weight matrix. -/
theorem v7_v67 : @Eq (S64x64.Idx → EReal) (m ((c.tc : Thread nD τ).loc main_arg6)) (V7 m ρ c main_v67) :=
  ((h2_v67 (W6 m ρ c)).trans ((truncf_ideal (φ := .f32) .bf16 _ bitsLt_bf16_f32).trans (w6_arg6 m ρ c))).symm
/-- Its bias row is the last bias laid out as one row. -/
theorem v7_v68 : @Eq (S1x64.Idx → EReal) (shapeCast S1x64 (m ((c.tc : Thread nD τ).loc main_arg7)) shapeCasts_S64_S1x64) (V7 m ρ c main_v68) :=
  ((h2_v68 (W6 m ρ c)).trans (by rw [w6_arg7 m ρ c])).symm

/-! ## The result -/

/-- The program's result array is the network of the argument arrays. -/
theorem result_eq : W8 m ρ c main_v69 = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W8_arr m ρ c 3).trans (Cert.Gcn.dense_ext _ _ _ _ _ shapeCasts_S64_S1x64 rfl fun p q =>
    region2_at (V7 m ρ) c _ _ _ _ (v7_v66 m ρ c) (v7_v67 m ρ c) (v7_v68 m ρ c) rfl p q)

end Cert.KernelIdeal.Hand

end
-- ==== Proof.RefIsSpec.lean ====
/-
  The reference program computes the network: the composed term its run ends at is, stage for stage, the
  specification's `out` of the argument arrays (the reference works out the message weights once per layer; both
  times they are the same function of the edge list).
-/
import proofs.«145735_j25048249270381_1_alg».proof.Proof.Gen.ReferenceIdeal.Run
import proofs.«145735_j25048249270381_1_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 16384 in
/-- The reference's result, as the run states it, is the network of the argument arrays. -/
theorem result_eq (m : (ℓ : Loc nD τ sig) → Buf (Elt F) ℓ) (c : Dev nD) :
    Cert.ReferenceIdeal.Value.res_main_v85 m c = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Value.res_main_v85 Cert.Gcn.out Cert.Gcn.layer2 Cert.Gcn.layer1 Cert.Gcn.bias64 Cert.Gcn.bias128
    Cert.Gcn.relu Cert.Gcn.agg64 Cert.Gcn.agg128 Cert.Gcn.mm1 Cert.Gcn.mm2 Cert.Gcn.mm3 Cert.Gcn.norm Cert.Gcn.dinv Cert.Gcn.wrap
    Cert.Gcn.src Cert.Gcn.dst
  rfl

end Cert.ReferenceIdeal.RefValue

end
-- ==== Proof.lean ====
/-
  A two-layer graph convolution followed by a dense layer over 100,000 nodes and 1,600,000 edges: the kernel
  program against its plain reference, equal at the extended reals.

  Both programs send, along every edge and along one self loop per node, the source node's transformed features
  scaled by deg(source)^(-1/2) · deg(target)^(-1/2), add what arrives at each node, add a bias (and after the first
  layer clamp at zero), and finish with a matrix product plus a bias row. They differ in one thing: the
  reference takes its three matrix products whole, the kernel program takes each in ten tiles of 10,000 rows
  (after narrowing the operands' float format, which changes nothing at the extended reals), the last one with
  the bias row added inside the tile. Entry (p, q) of a tile's product is the same sum over k of
  left (p, k) · right (k, q) as entry (p, q) of the whole product, the tiles cover the rows exactly, and adding
  the bias's entry q inside or afterwards is the same sum; every other operation is the same operation applied
  to equal values. So both results are one function, `Cert.Gcn.out`, of the argument arrays. No law used needs
  the inputs finite.

  The kernel program is its own idealization (no rewrite was applied), and the three programs' runs terminate
  with their arguments unchanged.
-/
import proofs.«145735_j25048249270381_1_alg».proof.Defs
import proofs.«145735_j25048249270381_1_alg».proof.Proof.Gen.Kernel
import proofs.«145735_j25048249270381_1_alg».proof.Proof.Gen.Kernel.Frame
import proofs.«145735_j25048249270381_1_alg».proof.Proof.Gen.KernelIdeal
import proofs.«145735_j25048249270381_1_alg».proof.Proof.Gen.KernelIdeal.Frame
import proofs.«145735_j25048249270381_1_alg».proof.Proof.Gen.ReferenceIdeal
import proofs.«145735_j25048249270381_1_alg».proof.Proof.Gen.ReferenceIdeal.Run
import proofs.«145735_j25048249270381_1_alg».proof.Proof.Gen.Pre_finite_inputs
import proofs.«145735_j25048249270381_1_alg».proof.Proof.KernelRun
import proofs.«145735_j25048249270381_1_alg».proof.Proof.KernelValue
import proofs.«145735_j25048249270381_1_alg».proof.Proof.RefIsSpec
import Idealize.ShloMosaic.Adequacy
import Idealize.ShloMosaic.Init

noncomputable section

namespace Cert.Proof

open Idealize.ShloMosaic Idealize.ShloMosaic.TcCoe Idealize.SL.Sem

/-- The kernel program as printed runs to the end with its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel program. -/
theorem preserves : Cert.preserves_Kernel_KernelIdeal := trivial

/-- From memories that agree on the arguments both programs end with the network of the arguments in their
    result arrays. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.result_eq m ρ c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.RefValue.result_eq m' c, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
